-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S256x64 : Shape := ⟨2, ![256, 64]⟩
abbrev S64 : Shape := ⟨1, ![64]⟩
abbrev S64x256 : Shape := ⟨2, ![64, 256]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x64x64 .f32) (main_arg1 : FVec F S256x64 .f32) (main_arg2 : FVec F S64 .f32) (main_arg3 : FVec F S64x256 .f32) (main_arg4 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_v13 main_v16
-- ==== Kernel.lean ====
abbrev S32x256x64x64 : Shape := ⟨4, ![32, 256, 64, 64]⟩
abbrev S256x64 : Shape := ⟨2, ![256, 64]⟩
abbrev S64 : Shape := ⟨1, ![64]⟩
abbrev S64x256 : Shape := ⟨2, ![64, 256]⟩
abbrev S256 : Shape := ⟨1, ![256]⟩
abbrev S32x256x4096 : Shape := ⟨3, ![32, 256, 4096]⟩
abbrev S1x64 : Shape := ⟨2, ![1, 64]⟩
abbrev S1x256 : Shape := ⟨2, ![1, 256]⟩
abbrev S1x256x4096 : Shape := ⟨3, ![1, 256, 4096]⟩
abbrev S256x4096 : Shape := ⟨2, ![256, 4096]⟩
abbrev S256x256 : Shape := ⟨2, ![256, 256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S32x256x64x64, .f32⟩
  | .hbm, ⟨1, _⟩ => ⟨S256x64, .f32⟩
  | .hbm, ⟨2, _⟩ => ⟨S64, .f32⟩
  | .hbm, ⟨3, _⟩ => ⟨S64x256, .f32⟩
  | .hbm, ⟨4, _⟩ => ⟨S256, .f32⟩
  | .hbm, ⟨5, _⟩ => ⟨S32x256x4096, .f32⟩
  | .hbm, ⟨6, _⟩ => ⟨S1x64, .f32⟩
  | .hbm, ⟨7, _⟩ => ⟨S1x256, .f32⟩
  | .hbm, ⟨8, _⟩ => ⟨S32x256x4096, .f32⟩
  | .hbm, ⟨9, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S256x64, .f32⟩
  | .local _ .vmem, ⟨3, _⟩ => ⟨S1x64, .f32⟩
  | .local _ .vmem, ⟨4, _⟩ => ⟨S64x256, .f32⟩
  | .local _ .vmem, ⟨5, _⟩ => ⟨S1x256, .f32⟩
  | .local _ .vmem, ⟨6, _⟩ => ⟨S1x256x4096, .f32⟩
  | .local _ .vmem, ⟨7, _⟩ => ⟨S1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x64x64_S32x256x4096 : S32x256x64x64.ShapeCasts S32x256x4096
  shapeCasts_S64_S1x64 : S64.ShapeCasts S1x64
  shapeCasts_S256_S1x256 : S256.ShapeCasts S1x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  reduces_S256x4096_S256 : S256x4096.Reduces [1] S256
  shapeCasts_S256_S256x1 : S256.ShapeCasts S256x1
  transposes_S256x1_p1_0_S1x256 : S256x1.Transposes [1, 0] S1x256
  broadcasts_S256x1_S256x256 : S256x1.Broadcasts S256x256
  broadcasts_S1x256_S256x256 : S1x256.Broadcasts S256x256
  iota_S256x256_d0_w32 : S256x256.Iotas .tc 32 [0]
  iota_S256x256_d1_w32 : S256x256.Iotas .tc 32 [1]
  reduces_S256x256_S256 : S256x256.Reduces [1] S256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S1x256_p1_0_S256x1 : S1x256.Transposes [1, 0] S256x1
  broadcasts_S256x1_S256x4096 : S256x1.Broadcasts S256x4096
  shapeCasts_S256x4096_S1x256x4096 : S256x4096.ShapeCasts S1x256x4096
  shapeCasts_S32x256x4096_S32x256x64x64 : S32x256x4096.ShapeCasts S32x256x64x64
  dot_S256x4096_S256x4096_S256x256_1_1_0_0_n_n_wf : DotDims.WF S256x4096 S256x4096 S256x256 [1] [1] [0] [0] [] []
  dot_S1x256_S256x64_S1x64_1_0_0_1_n_n_wf : DotDims.WF S1x256 S256x64 S1x64 [1] [0] [0] [1] [] []
  dot_S1x64_S64x256_S1x256_1_0_0_1_n_n_wf : DotDims.WF S1x64 S64x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S32x256x4096.size a
  hwx0_5 : ∀ i : grid0.Coords, EltTy.bits .f32 = 32 ∨ (Rect.block (s := S32x256x4096) S1x256x4096.size (cc0_transform_5 i) (hinb0_5 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S1x256_S256x64_S1x64_1_0_0_1_n_n : DotDims S1x256 S256x64 S1x64 where
  lhsContracting := [1]
  rhsContracting := [0]
  lhsNonContracting := [0]
  rhsNonContracting := [1]
  lhsBatch := []
  rhsBatch := []
  wf := dot_S1x256_S256x64_S1x64_1_0_0_1_n_n_wf
def dot_S1x64_S64x256_S1x256_1_0_0_1_n_n : DotDims S1x64 S64x256 S1x256 where
  lhsContracting := [1]
  rhsContracting := [0]
  lhsNonContracting := [0]
  rhsNonContracting := [1]
  lhsBatch := []
  rhsBatch := []
  wf := dot_S1x64_S64x256_S1x256_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S256x64 : Shape := ⟨2, ![256, 64]⟩
abbrev S64 : Shape := ⟨1, ![64]⟩
abbrev S64x256 : Shape := ⟨2, ![64, 256]⟩
abbrev S256 : Shape := ⟨1, ![256]⟩
abbrev S32x256x4096 : Shape := ⟨3, ![32, 256, 4096]⟩
abbrev S_ : Shape := ⟨0, ![]⟩
abbrev S32x256 : Shape := ⟨2, ![32, 256]⟩
abbrev S32x256x256 : Shape := ⟨3, ![32, 256, 256]⟩
abbrev S32x256x1 : Shape := ⟨3, ![32, 256, 1]⟩
abbrev S32x1x256 : Shape := ⟨3, ![32, 1, 256]⟩
abbrev S32x64 : Shape := ⟨2, ![32, 64]⟩
abbrev S1x64 : Shape := ⟨2, ![1, 64]⟩
abbrev S1x256 : Shape := ⟨2, ![1, 256]⟩
abbrev S32x256x1x1 : Shape := ⟨4, ![32, 256, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S256x64, .f32⟩
  | .hbm, ⟨2, _⟩ => ⟨S64, .f32⟩
  | .hbm, ⟨3, _⟩ => ⟨S64x256, .f32⟩
  | .hbm, ⟨4, _⟩ => ⟨S256, .f32⟩
  | .hbm, ⟨5, _⟩ => ⟨S32x256x4096, .f32⟩
  | .hbm, ⟨6, _⟩ => ⟨S32x256x4096, .f32⟩
  | .hbm, ⟨7, _⟩ => ⟨S_, .f32⟩
  | .hbm, ⟨8, _⟩ => ⟨S32x256, .f32⟩
  | .hbm, ⟨9, _⟩ => ⟨S32x256x256, .f32⟩
  | .hbm, ⟨10, _⟩ => ⟨S32x256x1, .f32⟩
  | .hbm, ⟨11, _⟩ => ⟨S32x1x256, .f32⟩
  | .hbm, ⟨12, _⟩ => ⟨S32x256x256, .f32⟩
  | .hbm, ⟨13, _⟩ => ⟨S32x256x256, .f32⟩
  | .hbm, ⟨14, _⟩ => ⟨S32x256x256, .f32⟩
  | .hbm, ⟨15, _⟩ => ⟨S_, .f32⟩
  | .hbm, ⟨16, _⟩ => ⟨S32x256x256, .f32⟩
  | .hbm, ⟨17, _⟩ => ⟨S32x256x256, .f32⟩
  | .hbm, ⟨18, _⟩ => ⟨S32x256x256, .f32⟩
  | .hbm, ⟨19, _⟩ => ⟨S_, .f32⟩
  | .hbm, ⟨20, _⟩ => ⟨S32x256x256, .f32⟩
  | .hbm, ⟨21, _⟩ => ⟨S32x256x256, .f32⟩
  | .hbm, ⟨22, _⟩ => ⟨S_, .f32⟩
  | .hbm, ⟨23, _⟩ => ⟨S32x256x256, .f32⟩
  | .hbm, ⟨24, _⟩ => ⟨S32x256x256, .f32⟩
  | .hbm, ⟨25, _⟩ => ⟨S_, .f32⟩
  | .hbm, ⟨26, _⟩ => ⟨S32x256x256, .f32⟩
  | .hbm, ⟨27, _⟩ => ⟨S32x256x256, .f32⟩
  | .hbm, ⟨28, _⟩ => ⟨S32x256x256, .f32⟩
  | .hbm, ⟨29, _⟩ => ⟨S_, .f32⟩
  | .hbm, ⟨30, _⟩ => ⟨S32x256, .f32⟩
  | .hbm, ⟨31, _⟩ => ⟨S_, .f32⟩
  | .hbm, ⟨32, _⟩ => ⟨S32x256, .f32⟩
  | .hbm, ⟨33, _⟩ => ⟨S32x256, .f32⟩
  | .hbm, ⟨34, _⟩ => ⟨S32x64, .f32⟩
  | .hbm, ⟨35, _⟩ => ⟨S1x64, .f32⟩
  | .hbm, ⟨36, _⟩ => ⟨S32x64, .f32⟩
  | .hbm, ⟨37, _⟩ => ⟨S32x64, .f32⟩
  | .hbm, ⟨38, _⟩ => ⟨S_, .f32⟩
  | .hbm, ⟨39, _⟩ => ⟨S32x64, .f32⟩
  | .hbm, ⟨40, _⟩ => ⟨S32x64, .f32⟩
  | .hbm, ⟨41, _⟩ => ⟨S32x256, .f32⟩
  | .hbm, ⟨42, _⟩ => ⟨S1x256, .f32⟩
  | .hbm, ⟨43, _⟩ => ⟨S32x256, .f32⟩
  | .hbm, ⟨44, _⟩ => ⟨S32x256, .f32⟩
  | .hbm, ⟨45, _⟩ => ⟨S32x256, .f32⟩
  | .hbm, ⟨46, _⟩ => ⟨S32x256, .f32⟩
  | .hbm, ⟨47, _⟩ => ⟨S_, .f32⟩
  | .hbm, ⟨48, _⟩ => ⟨S32x256, .f32⟩
  | .hbm, ⟨49, _⟩ => ⟨S32x256, .f32⟩
  | .hbm, ⟨50, _⟩ => ⟨S_, .f32⟩
  | .hbm, ⟨51, _⟩ => ⟨S32x256, .f32⟩
  | .hbm, ⟨52, _⟩ => ⟨S32x256, .f32⟩
  | .hbm, ⟨53, _⟩ => ⟨S32x256x1x1, .f32⟩
  | .hbm, ⟨54, _⟩ => ⟨S_, .f32⟩
  | .hbm, ⟨55, _⟩ => ⟨S32x256x1x1, .f32⟩
  | .hbm, ⟨56, _⟩ => ⟨S32x256x1x1, .f32⟩
  | .hbm, ⟨57, _⟩ => ⟨S32x256x64x64, .f32⟩
  | .hbm, ⟨58, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  shapeCasts_S32x256x64x64_S32x256x4096 : S32x256x64x64.ShapeCasts S32x256x4096
  reducesTo_S32x256x4096_S32x256_d2 : S32x256x4096.ReducesTo [2] S32x256
  h_S_ : 0 < S_.numel
  bcast_S32x256_S32x256x1_0_1 : S32x256.BroadcastsInDim S32x256x1 (![0, 1] : Fin 2 → Fin S32x256x1.rank)
  bcast_S32x256_S32x1x256_0_2 : S32x256.BroadcastsInDim S32x1x256 (![0, 2] : Fin 2 → Fin S32x1x256.rank)
  bcast_S32x256x1_S32x256x256_0_1_2 : S32x256x1.BroadcastsInDim S32x256x256 (![0, 1, 2] : Fin 3 → Fin S32x256x256.rank)
  bcast_S32x1x256_S32x256x256_0_1_2 : S32x1x256.BroadcastsInDim S32x256x256 (![0, 1, 2] : Fin 3 → Fin S32x256x256.rank)
  bcast_S_S32x256x256 : S_.BroadcastsInDim S32x256x256 (![] : Fin 0 → Fin S32x256x256.rank)
  reducesTo_S32x256x256_S32x256_d2 : S32x256x256.ReducesTo [2] S32x256
  bcast_S_S32x256 : S_.BroadcastsInDim S32x256 (![] : Fin 0 → Fin S32x256.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x256_S32x256x1x1_0_1 : S32x256.BroadcastsInDim S32x256x1x1 (![0, 1] : Fin 2 → Fin S32x256x1x1.rank)
  bcast_S_S32x256x1x1 : S_.BroadcastsInDim S32x256x1x1 (![] : Fin 0 → Fin S32x256x1x1.rank)
  bcast_S32x256x1x1_S32x256x64x64_0_1_2_3 : S32x256x1x1.BroadcastsInDim S32x256x64x64 (![0, 1, 2, 3] : Fin 4 → Fin S32x256x64x64.rank)
  dot_S32x256x4096_S32x256x4096_S32x256x256_2_2_1_1_0_0_wf : DotDims.WF S32x256x4096 S32x256x4096 S32x256x256 [2] [2] [1] [1] [0] [0]
  dot_S32x256_S256x64_S32x64_1_0_0_1_n_n_wf : DotDims.WF S32x256 S256x64 S32x64 [1] [0] [0] [1] [] []
  dot_S32x64_S64x256_S32x256_1_0_0_1_n_n_wf : DotDims.WF S32x64 S64x256 S32x256 [1] [0] [0] [1] [] []

variable [Facts₀]

def dot_S32x256x4096_S32x256x4096_S32x256x256_2_2_1_1_0_0 : DotDims S32x256x4096 S32x256x4096 S32x256x256 where
  lhsContracting := [2]
  rhsContracting := [2]
  lhsNonContracting := [1]
  rhsNonContracting := [1]
  lhsBatch := [0]
  rhsBatch := [0]
  wf := dot_S32x256x4096_S32x256x4096_S32x256x256_2_2_1_1_0_0_wf
def dot_S32x256_S256x64_S32x64_1_0_0_1_n_n : DotDims S32x256 S256x64 S32x64 where
  lhsContracting := [1]
  rhsContracting := [0]
  lhsNonContracting := [0]
  rhsNonContracting := [1]
  lhsBatch := []
  rhsBatch := []
  wf := dot_S32x256_S256x64_S32x64_1_0_0_1_n_n_wf
def dot_S32x64_S64x256_S32x256_1_0_0_1_n_n : DotDims S32x64 S64x256 S32x256 where
  lhsContracting := [1]
  rhsContracting := [0]
  lhsNonContracting := [0]
  rhsNonContracting := [1]
  lhsBatch := []
  rhsBatch := []
  wf := dot_S32x64_S64x256_S32x256_1_0_0_1_n_n_wf

class Facts : Prop extends Facts₀ where

variable [Facts]
-- ==== Proof.Spec.lean ====
/-
  The mathematics of the kernel-density attention, once, over plain index types.

  One batch is a matrix `X : Fin 256 → Fin 4096 → EReal` (256 channels, 4096 positions). From it:
  the squared norm of a channel `sq c = Σ_n X c n²`, the Gram entry `gram c d = Σ_n X c n · X d n`, the clamped squared
  distance `dist c d = max (sq c + sq d − 2·gram c d) 0`, the density `dens c = (Σ_d exp (−½ · dist c d)) / 256`,
  the hidden layer `hid r = max (Σ_k dens k · w1 k r + b1 r) 0` and the gate
  `gate c = logistic (Σ_k hid k · w2 k c + b2 c)`; the result scales `X c n` by `gate c + ½`.

  The float literals stay as their words, except where a law needs a value: `2.0` is the real two (for the
  diagonal of the distance matrix), `1.0` is one and `0.0` is zero (library lemmas).

  The one law that is not a re-reading: on the diagonal `dist c c = 0` for EVERY extended real `sq c`
  (`a + a − 2·a` is `0` for a real and `⊥` at both infinities, and the clamp at `0` absorbs `⊥`), so forcing the
  diagonal to zero — as one of the two programs does — changes nothing.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Kde

open Idealize.ShloMosaic

/-- The word of `2.0`. -/
abbrev W2 : EReal := Ideal.ofBits .f32 0x40000000#32
/-- The word of `-0.5`. -/
abbrev Wmh : EReal := Ideal.ofBits .f32 0xBF000000#32
/-- The word of `256.0`. -/
abbrev W256 : EReal := Ideal.ofBits .f32 0x43800000#32
/-- The word of `0.5`. -/
abbrev Wh : EReal := Ideal.ofBits .f32 0x3F000000#32

/-- The f32 word `0x40000000` is the real two. -/
theorem W2_eq : W2 = ((2 : ℝ) : EReal) := by
  simp [W2, Ideal.ofBits, Ideal.ieee, -EReal.coe_mul]; norm_num

/-- `a + a − 2·a` clamped at zero is zero at every extended real. -/
theorem diag_zero (a : EReal) : max (a + a - W2 * a) 0 = 0 := by
  rw [W2_eq]
  induction a using EReal.rec with
  | bot =>
    rw [EReal.mul_bot_of_pos (by exact_mod_cast (by norm_num : (0 : ℝ) < 2))]
    simp
  | top =>
    rw [EReal.mul_top_of_pos (by exact_mod_cast (by norm_num : (0 : ℝ) < 2))]
    simp
  | coe r =>
    have : ((r : EReal) + r - ((2 : ℝ) : EReal) * r) = ((r + r - 2 * r : ℝ) : EReal) := by norm_cast
    rw [this, show r + r - 2 * r = 0 by ring]
    simp

/-- A quotient by one is the dividend. -/
theorem div_one (x : EReal) : Ideal.div x 1 = x := by
  rw [Ideal.div, if_neg one_ne_zero, inv_one, mul_one]

section OneBatch

variable (X : Fin 256 → Fin 4096 → EReal)

/-- A channel's squared norm. -/
def sq (c : Fin 256) : EReal := ∑ n : Fin 4096, X c n * X c n
/-- The Gram matrix of the channels. -/
def gram (c d : Fin 256) : EReal := ∑ n : Fin 4096, X c n * X d n
/-- The squared distance of two channels, clamped at zero. -/
def dist (c d : Fin 256) : EReal := max (sq X c + sq X d - W2 * gram X c d) 0
/-- The Gaussian kernel density of a channel among the 256. -/
def dens (c : Fin 256) : EReal := Ideal.div (∑ d : Fin 256, Ideal.exp (Wmh * dist X c d)) W256

variable (w1 : Fin 256 → Fin 64 → EReal) (b1 : Fin 64 → EReal) (w2 : Fin 64 → Fin 256 → EReal) (b2 : Fin 256 → EReal)

/-- The hidden layer: the densities through the first matrix, the bias, the rectifier. -/
def hid (r : Fin 64) : EReal := max ((∑ k : Fin 256, dens X k * w1 k r) + b1 r) 0
/-- The gate: the hidden layer through the second matrix, the bias, the logistic function. -/
def gate (c : Fin 256) : EReal := Ideal.logistic ((∑ k : Fin 64, hid X w1 b1 k * w2 k c) + b2 c)

/-- The Gram matrix's diagonal is the squared norm. -/
theorem gram_self (c : Fin 256) : gram X c c = sq X c := rfl

/-- On the diagonal the clamped distance is zero, whatever the norm. -/
theorem dist_self (c : Fin 256) : dist X c c = 0 := by
  unfold dist; rw [gram_self]; exact diag_zero _

end OneBatch

/-! ## The arrays -/

open Idealize.ShloMosaic.ValueIdx

/-- Batch `b` of a [32, 256, 4096] array as a 256 × 4096 matrix. -/
def batch (y : (⟨3, ![32, 256, 4096]⟩ : Shape).Idx → EReal) (b : Fin 32) : Fin 256 → Fin 4096 → EReal :=
  fun c n => y (ix3 b c n)
/-- A rank-2 array as a function of its two coordinates. -/
def mat {p q : Nat} (w : (⟨2, ![p, q]⟩ : Shape).Idx → EReal) : Fin p → Fin q → EReal := fun i j => w (ix2 i j)
/-- A rank-1 array as a function of its coordinate. -/
def vec {p : Nat} (v : (⟨1, ![p]⟩ : Shape).Idx → EReal) : Fin p → EReal := fun i => v (ix1 i)

/-- The result over the [32, 256, 4096] layout: entry (b, c, n) of `y` scaled by batch `b`'s gate of channel `c` plus one half. -/
def G3 (y : (⟨3, ![32, 256, 4096]⟩ : Shape).Idx → EReal) (w1 : Fin 256 → Fin 64 → EReal) (b1 : Fin 64 → EReal)
    (w2 : Fin 64 → Fin 256 → EReal) (b2 : Fin 256 → EReal) : (⟨3, ![32, 256, 4096]⟩ : Shape).Idx → EReal :=
  fun j => y j * (gate (batch y (j 0)) w1 b1 w2 b2 (j 1) + Wh)

/-- The result over the [32, 256, 64, 64] layout: entry (b, c, h, w) of `x` scaled by the same factor, the gate computed
    from `y`, the [32, 256, 4096] re-reading of `x`. -/
def G4 (x : (⟨4, ![32, 256, 64, 64]⟩ : Shape).Idx → EReal) (y : (⟨3, ![32, 256, 4096]⟩ : Shape).Idx → EReal)
    (w1 : Fin 256 → Fin 64 → EReal) (b1 : Fin 64 → EReal) (w2 : Fin 64 → Fin 256 → EReal) (b2 : Fin 256 → EReal) :
    (⟨4, ![32, 256, 64, 64]⟩ : Shape).Idx → EReal :=
  fun i => x i * (gate (batch y (i 0)) w1 b1 w2 b2 (i 1) + Wh)

end Cert.Kde

end
-- ==== Proof.KerLayout.lean ====
/-
  The layout operations of the kernel body read at an index of coordinates: a vector of 256 row values as a column
  [256] → [256, 1]; a column turned into a row and back, [256, 1] ↔ [1, 256]; a column or a row spread over a matrix,
  [256, 1] → [256, q] and [1, 256] → [256, 256]; a block's leading unit axis dropped and added, [1, 256, q] ↔ [256, q];
  a row sum of a [256, q] matrix as the sum over the q columns; and the comparison of two small naturals as 32-bit words.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Kde.Layout

open Idealize.ShloMosaic Idealize.ShloMosaic.ValueIdx

variable {α : Type}

/-- A vector of row values viewed as a column: entry (c, 0) is entry c. -/
theorem cast_col (v : (⟨1, ![256]⟩ : Shape).Idx → α) (h : (⟨1, ![256]⟩ : Shape).ShapeCasts ⟨2, ![256, 1]⟩) (c : Fin 256) :
    shapeCast ⟨2, ![256, 1]⟩ v h (ix2 c (0 : Fin 1)) = v (ix1 c) :=
  shapeCast_apply v h _ _ (by
    rw [Shape.rowMajor_val_one, Shape.rowMajor_val_two]
    show c.val = c.val * 1 + 0
    omega)

/-- A column turned into a row: entry (0, c) is entry (c, 0). -/
theorem col_to_row (v : (⟨2, ![256, 1]⟩ : Shape).Idx → α) (h : (⟨2, ![256, 1]⟩ : Shape).Transposes [1, 0] ⟨2, ![1, 256]⟩)
    (c : Fin 256) : transpose ⟨2, ![1, 256]⟩ [1, 0] v h (ix2 (0 : Fin 1) c) = v (ix2 c (0 : Fin 1)) :=
  transpose_apply [1, 0] v h _ _ (fun b => match b with | ⟨0, _⟩ => rfl | ⟨1, _⟩ => rfl)

/-- A row turned into a column: entry (c, 0) is entry (0, c). -/
theorem row_to_col (v : (⟨2, ![1, 256]⟩ : Shape).Idx → α) (h : (⟨2, ![1, 256]⟩ : Shape).Transposes [1, 0] ⟨2, ![256, 1]⟩)
    (c : Fin 256) : transpose ⟨2, ![256, 1]⟩ [1, 0] v h (ix2 c (0 : Fin 1)) = v (ix2 (0 : Fin 1) c) :=
  transpose_apply [1, 0] v h _ _ (fun b => match b with | ⟨0, _⟩ => rfl | ⟨1, _⟩ => rfl)

/-- A column spread over the columns of a matrix: entry (c, d) is the column's entry (c, 0). -/
theorem spread_col {q : Nat} (v : (⟨2, ![256, 1]⟩ : Shape).Idx → α) (h : (⟨2, ![256, 1]⟩ : Shape).Broadcasts ⟨2, ![256, q]⟩)
    (c : Fin 256) (d : Fin q) : broadcastTo ⟨2, ![256, q]⟩ v h (ix2 c d) = v (ix2 c (0 : Fin 1)) :=
  broadcastTo_apply v h _ _ (fun a => match a with
    | ⟨0, _⟩ => by show c.val = if (256 : Nat) = 1 then 0 else c.val; rw [if_neg (by decide)]
    | ⟨1, _⟩ => by show 0 = if (1 : Nat) = 1 then 0 else d.val; rw [if_pos rfl])

/-- A row spread over the rows of a matrix: entry (c, d) is the row's entry (0, d). -/
theorem spread_row (v : (⟨2, ![1, 256]⟩ : Shape).Idx → α) (h : (⟨2, ![1, 256]⟩ : Shape).Broadcasts ⟨2, ![256, 256]⟩)
    (c d : Fin 256) : broadcastTo ⟨2, ![256, 256]⟩ v h (ix2 c d) = v (ix2 (0 : Fin 1) d) :=
  broadcastTo_apply v h _ _ (fun a => match a with
    | ⟨0, _⟩ => by show 0 = if (1 : Nat) = 1 then 0 else c.val; rw [if_pos rfl]
    | ⟨1, _⟩ => by show d.val = if (256 : Nat) = 1 then 0 else d.val; rw [if_neg (by decide)])

/-- A block's leading unit axis dropped: entry (c, n) is the block's entry (0, c, n). -/
theorem drop_unit {q : Nat} (v : (⟨3, ![1, 256, q]⟩ : Shape).Idx → α) (h : (⟨3, ![1, 256, q]⟩ : Shape).ShapeCasts ⟨2, ![256, q]⟩)
    (c : Fin 256) (n : Fin q) : shapeCast ⟨2, ![256, q]⟩ v h (ix2 c n) = v (ix3 (0 : Fin 1) c n) :=
  shapeCast_apply v h _ _ (by
    rw [Shape.rowMajor_val_three, Shape.rowMajor_val_two]
    show (0 * 256 + c.val) * q + n.val = c.val * q + n.val
    rw [Nat.zero_mul, Nat.zero_add])

/-- A leading unit axis added: the block's entry (0, c, n) is entry (c, n). -/
theorem add_unit {q : Nat} (v : (⟨2, ![256, q]⟩ : Shape).Idx → α) (h : (⟨2, ![256, q]⟩ : Shape).ShapeCasts ⟨3, ![1, 256, q]⟩)
    (c : Fin 256) (n : Fin q) : shapeCast ⟨3, ![1, 256, q]⟩ v h (ix3 (0 : Fin 1) c n) = v (ix2 c n) :=
  shapeCast_apply v h _ _ (by
    rw [Shape.rowMajor_val_three, Shape.rowMajor_val_two]
    show c.val * q + n.val = (0 * 256 + c.val) * q + n.val
    rw [Nat.zero_mul, Nat.zero_add])

/-- A row sum of a [256, q] matrix into the zero word, at the ideal values: the sum over the q columns. -/
theorem row_sum {q : Nat} (src : FVec Ideal ⟨2, ![256, q]⟩ .f32) (h : (⟨2, ![256, q]⟩ : Shape).Reduces [1] ⟨1, ![256]⟩)
    (hφ : FKind.Formats .f32) (hacc : (0x00000000#32 : BitVec 32) = FKind.add.neutral .f32 hφ) (c : Fin 256) :
    multiReduction .add [1] ⟨1, ![256]⟩ src 0x00000000#32 h hφ hacc (ix1 c) = ∑ k : Fin q, src (ix2 c k) := by
  refine (Ideal.multiReduction_add_single src 0x00000000#32 h hφ hacc (ix1 c)).trans ?_
  show ∑ k : Fin q, src (h.lift (ix1 c) k) = _
  refine Finset.sum_congr rfl fun k _ => congrArg src (funext fun a => Fin.ext ?_)
  match a with
  | ⟨0, _⟩ => rfl
  | ⟨1, _⟩ => rfl

/-- Two naturals below 256, as 32-bit words, compare equal exactly when they are equal. -/
theorem cmpi_eq_small (c d : Nat) (hc : c < 256) (hd : d < 256) :
    IntOp.cmpi .eq (BitVec.ofNat 32 c) (BitVec.ofNat 32 d) = if c = d then 1#1 else 0#1 := by
  by_cases h : c = d
  · subst h; simp [IntOp.cmpi]
  · rw [if_neg h]
    have hne : BitVec.ofNat 32 c ≠ BitVec.ofNat 32 d := by
      intro e
      have e' := congrArg BitVec.toNat e
      rw [BitVec.toNat_ofNat, BitVec.toNat_ofNat, Nat.mod_eq_of_lt (by omega), Nat.mod_eq_of_lt (by omega)] at e'
      exact h e'
    show BitVec.ofBool (BitVec.ofNat 32 c == BitVec.ofNat 32 d) = 0#1
    rw [beq_false_of_ne hne]; rfl

end Cert.Kde.Layout

end
-- ==== Proof.KerStages.lean ====
/-
  The kernel body, stage by stage, is the specification of one batch. The body's arithmetic is regrouped into named
  stages — the Gram matrix of the loaded block, its row sums of squares, the clamped distances with the diagonal forced to
  zero, the densities as a row, the hidden layer, the scaled block — each a vector expression equal to the printed one by
  unfolding, and each read at an index of coordinates as the corresponding entry of the specification over the block's
  matrix `M v1 c n = v1 (c, n)`.

  The laws used: a matrix product into the zero accumulator and a row sum into the zero word are plain sums; a change of
  float format is the identity; and the diagonal of the clamped distances is zero for every value of the norm, so the
  forced zero there agrees with the specification.
-/
import proofs.«113556_j83202106458478_2_alg».proof.Proof.Gen.KernelIdeal.Skeleton
import proofs.«113556_j83202106458478_2_alg».proof.Proof.Spec
import proofs.«113556_j83202106458478_2_alg».proof.Proof.KerLayout

noncomputable section

open scoped BigOperators

namespace Cert.Kde.Ker

open Cert.KernelIdeal Cert.KernelIdeal.Gen Idealize.ShloMosaic Idealize.ShloMosaic.ValueIdx Cert.Kde Cert.Kde.Layout

/-- A [256, 4096] vector as a matrix of its coordinates. -/
def M (v1 : FVec Ideal S256x4096 .f32) : Fin 256 → Fin 4096 → EReal := fun c n => v1 (ix2 c n)

/-! ## The three matrix products at an index -/

theorem dg_l0 (i : S256x256.Idx) (q : dot_S256x4096_S256x4096_S256x256_1_1_0_0_n_n.contr.Idx) : (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide),
    dif_pos (show (0 : Fin S256x4096.rank) ∈ dot_S256x4096_S256x4096_S256x256_1_1_0_0_n_n.lhsNonContracting by decide)]
  rfl
theorem dg_l1 (i : S256x256.Idx) (q : dot_S256x4096_S256x4096_S256x256_1_1_0_0_n_n.contr.Idx) : (dot_S256x4096_S256x4096_S256x256_1_1_0_0_n_n.lhsIdx i q 1).val = (q ⟨0, by decide⟩).val :=
  dot_S256x4096_S256x4096_S256x256_1_1_0_0_n_n.lhsIdx_val_of_single rfl i q
theorem dg_r0 (i : S256x256.Idx) (q : dot_S256x4096_S256x4096_S256x256_1_1_0_0_n_n.contr.Idx) : (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide),
    dif_pos (show (0 : Fin S256x4096.rank) ∈ dot_S256x4096_S256x4096_S256x256_1_1_0_0_n_n.rhsNonContracting by decide)]
  rfl
theorem dg_r1 (i : S256x256.Idx) (q : dot_S256x4096_S256x4096_S256x256_1_1_0_0_n_n.contr.Idx) : (dot_S256x4096_S256x4096_S256x256_1_1_0_0_n_n.rhsIdx i q 1).val = (q ⟨0, by decide⟩).val :=
  dot_S256x4096_S256x4096_S256x256_1_1_0_0_n_n.rhsIdx_val_of_single rfl i q

/-- The block against itself over positions: entry (c, d) is the sum over n of the products of rows c and d. -/
theorem mm_gram (l r : FVec Ideal S256x4096 .bf16) (c d : Fin 256) :
    matmul dot_S256x4096_S256x4096_S256x256_1_1_0_0_n_n none l r (constant S256x256 .f32 0x00000000#32) (ix2 c d)
      = ∑ n : Fin 4096, l (ix2 c n) * r (ix2 d n) := by
  refine (Ideal.matmul_constant_zero_apply dot_S256x4096_S256x4096_S256x256_1_1_0_0_n_n none l r (ix2 c d)).trans ?_
  rw [← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 c d) ((contrEquiv1 dot_S256x4096_S256x4096_S256x256_1_1_0_0_n_n 4096 rfl rfl).symm k) = ix2 c k := funext fun a => Fin.ext (by
    match a with
    | ⟨0, _⟩ => exact dg_l0 _ _
    | ⟨1, _⟩ => exact (dg_l1 _ _).trans hk)
  have er : dot_S256x4096_S256x4096_S256x256_1_1_0_0_n_n.rhsIdx (ix2 c d) ((contrEquiv1 dot_S256x4096_S256x4096_S256x256_1_1_0_0_n_n 4096 rfl rfl).symm k) = ix2 d k := funext fun a => Fin.ext (by
    match a with
    | ⟨0, _⟩ => exact dg_r0 _ _
    | ⟨1, _⟩ => exact (dg_r1 _ _).trans hk)
  rw [el, er]

theorem d1_l0 (i : S1x64.Idx) (q : dot_S1x256_S256x64_S1x64_1_0_0_1_n_n.contr.Idx) : (dot_S1x256_S256x64_S1x64_1_0_0_1_n_n.lhsIdx i q 0).val = (i 0).val := by
  unfold DotDims.lhsIdx
  rw [dif_neg (show ¬(0 : Fin S1x256.rank) ∈ dot_S1x256_S256x64_S1x64_1_0_0_1_n_n.lhsBatch by decide),
    dif_pos (show (0 : Fin S1x256.rank) ∈ dot_S1x256_S256x64_S1x64_1_0_0_1_n_n.lhsNonContracting by decide)]
  rfl
theorem d1_l1 (i : S1x64.Idx) (q : dot_S1x256_S256x64_S1x64_1_0_0_1_n_n.contr.Idx) : (dot_S1x256_S256x64_S1x64_1_0_0_1_n_n.lhsIdx i q 1).val = (q ⟨0, by decide⟩).val :=
  dot_S1x256_S256x64_S1x64_1_0_0_1_n_n.lhsIdx_val_of_single rfl i q
theorem d1_r0 (i : S1x64.Idx) (q : dot_S1x256_S256x64_S1x64_1_0_0_1_n_n.contr.Idx) : (dot_S1x256_S256x64_S1x64_1_0_0_1_n_n.rhsIdx i q 0).val = (q ⟨0, by decide⟩).val :=
  dot_S1x256_S256x64_S1x64_1_0_0_1_n_n.rhsIdx_val_of_single rfl i q
theorem d1_r1 (i : S1x64.Idx) (q : dot_S1x256_S256x64_S1x64_1_0_0_1_n_n.contr.Idx) : (dot_S1x256_S256x64_S1x64_1_0_0_1_n_n.rhsIdx i q 1).val = (i 1).val := by
  unfold DotDims.rhsIdx
  rw [dif_neg (show ¬(1 : Fin S256x64.rank) ∈ dot_S1x256_S256x64_S1x64_1_0_0_1_n_n.rhsBatch by decide),
    dif_pos (show (1 : Fin S256x64.rank) ∈ dot_S1x256_S256x64_S1x64_1_0_0_1_n_n.rhsNonContracting by decide)]
  rfl

/-- A row of 256 through a 256 × 64 matrix: entry (0, r) is the sum over k of the row's entry k times the matrix's (k, r). -/
theorem mm_first (l : FVec Ideal S1x256 .f32) (r : FVec Ideal S256x64 .f32) (j : Fin 64) :
    matmul dot_S1x256_S256x64_S1x64_1_0_0_1_n_n (some .fp32) l r (constant S1x64 .f32 0x00000000#32) (ix2 (0 : Fin 1) j)
      = ∑ k : Fin 256, l (ix2 (0 : Fin 1) k) * r (ix2 k j) := by
  refine (Ideal.matmul_constant_zero_apply dot_S1x256_S256x64_S1x64_1_0_0_1_n_n (some .fp32) l r (ix2 (0 : Fin 1) j)).trans ?_
  rw [← Equiv.sum_comp (contrEquiv1 dot_S1x256_S256x64_S1x64_1_0_0_1_n_n 256 rfl rfl).symm]
  refine Finset.sum_congr rfl fun k _ => ?_
  have hk := contrEquiv1_symm_val dot_S1x256_S256x64_S1x64_1_0_0_1_n_n 256 rfl rfl k
  have el : dot_S1x256_S256x64_S1x64_1_0_0_1_n_n.lhsIdx (ix2 (0 : Fin 1) j) ((contrEquiv1 dot_S1x256_S256x64_S1x64_1_0_0_1_n_n 256 rfl rfl).symm k) = ix2 (0 : Fin 1) k := funext fun a => Fin.ext (by
    match a with
    | ⟨0, _⟩ => exact d1_l0 _ _
    | ⟨1, _⟩ => exact (d1_l1 _ _).trans hk)
  have er : dot_S1x256_S256x64_S1x64_1_0_0_1_n_n.rhsIdx (ix2 (0 : Fin 1) j) ((contrEquiv1 dot_S1x256_S256x64_S1x64_1_0_0_1_n_n 256 rfl rfl).symm k) = ix2 k j := funext fun a => Fin.ext (by
    match a with
    | ⟨0, _⟩ => exact (d1_r0 _ _).trans hk
    | ⟨1, _⟩ => exact d1_r1 _ _)
  rw [el, er]

theorem d2_l0 (i : S1x256.Idx) (q : dot_S1x64_S64x256_S1x256_1_0_0_1_n_n.contr.Idx) : (dot_S1x64_S64x256_S1x256_1_0_0_1_n_n.lhsIdx i q 0).val = (i 0).val := by
  unfold DotDims.lhsIdx
  rw [dif_neg (show ¬(0 : Fin S1x64.rank) ∈ dot_S1x64_S64x256_S1x256_1_0_0_1_n_n.lhsBatch by decide),
    dif_pos (show (0 : Fin S1x64.rank) ∈ dot_S1x64_S64x256_S1x256_1_0_0_1_n_n.lhsNonContracting by decide)]
  rfl
theorem d2_l1 (i : S1x256.Idx) (q : dot_S1x64_S64x256_S1x256_1_0_0_1_n_n.contr.Idx) : (dot_S1x64_S64x256_S1x256_1_0_0_1_n_n.lhsIdx i q 1).val = (q ⟨0, by decide⟩).val :=
  dot_S1x64_S64x256_S1x256_1_0_0_1_n_n.lhsIdx_val_of_single rfl i q
theorem d2_r0 (i : S1x256.Idx) (q : dot_S1x64_S64x256_S1x256_1_0_0_1_n_n.contr.Idx) : (dot_S1x64_S64x256_S1x256_1_0_0_1_n_n.rhsIdx i q 0).val = (q ⟨0, by decide⟩).val :=
  dot_S1x64_S64x256_S1x256_1_0_0_1_n_n.rhsIdx_val_of_single rfl i q
theorem d2_r1 (i : S1x256.Idx) (q : dot_S1x64_S64x256_S1x256_1_0_0_1_n_n.contr.Idx) : (dot_S1x64_S64x256_S1x256_1_0_0_1_n_n.rhsIdx i q 1).val = (i 1).val := by
  unfold DotDims.rhsIdx
  rw [dif_neg (show ¬(1 : Fin S64x256.rank) ∈ dot_S1x64_S64x256_S1x256_1_0_0_1_n_n.rhsBatch by decide),
    dif_pos (show (1 : Fin S64x256.rank) ∈ dot_S1x64_S64x256_S1x256_1_0_0_1_n_n.rhsNonContracting by decide)]
  rfl

/-- A row of 64 through a 64 × 256 matrix: entry (0, c) is the sum over k of the row's entry k times the matrix's (k, c). -/
theorem mm_second (l : FVec Ideal S1x64 .f32) (r : FVec Ideal S64x256 .f32) (j : Fin 256) :
    matmul dot_S1x64_S64x256_S1x256_1_0_0_1_n_n (some .fp32) l r (constant S1x256 .f32 0x00000000#32) (ix2 (0 : Fin 1) j)
      = ∑ k : Fin 64, l (ix2 (0 : Fin 1) k) * r (ix2 k j) := by
  refine (Ideal.matmul_constant_zero_apply dot_S1x64_S64x256_S1x256_1_0_0_1_n_n (some .fp32) l r (ix2 (0 : Fin 1) j)).trans ?_
  rw [← Equiv.sum_comp (contrEquiv1 dot_S1x64_S64x256_S1x256_1_0_0_1_n_n 64 rfl rfl).symm]
  refine Finset.sum_congr rfl fun k _ => ?_
  have hk := contrEquiv1_symm_val dot_S1x64_S64x256_S1x256_1_0_0_1_n_n 64 rfl rfl k
  have el : dot_S1x64_S64x256_S1x256_1_0_0_1_n_n.lhsIdx (ix2 (0 : Fin 1) j) ((contrEquiv1 dot_S1x64_S64x256_S1x256_1_0_0_1_n_n 64 rfl rfl).symm k) = ix2 (0 : Fin 1) k := funext fun a => Fin.ext (by
    match a with
    | ⟨0, _⟩ => exact d2_l0 _ _
    | ⟨1, _⟩ => exact (d2_l1 _ _).trans hk)
  have er : dot_S1x64_S64x256_S1x256_1_0_0_1_n_n.rhsIdx (ix2 (0 : Fin 1) j) ((contrEquiv1 dot_S1x64_S64x256_S1x256_1_0_0_1_n_n 64 rfl rfl).symm k) = ix2 k j := funext fun a => Fin.ext (by
    match a with
    | ⟨0, _⟩ => exact (d2_r0 _ _).trans hk
    | ⟨1, _⟩ => exact d2_r1 _ _)
  rw [el, er]

/-! ## The stages -/

/-- The Gram matrix of the block, through the narrower float format. -/
def gramV (v1 : FVec Ideal S256x4096 .f32) : FVec Ideal S256x256 .f32 :=
  matmul dot_S256x4096_S256x4096_S256x256_1_1_0_0_n_n none (truncf .bf16 v1 bitsLt_bf16_f32) (truncf .bf16 v1 bitsLt_bf16_f32)
    (constant S256x256 .f32 0x00000000#32)

/-- The rows' sums of squares. -/
def sqV (v1 : FVec Ideal S256x4096 .f32) : FVec Ideal S256 .f32 :=
  multiReduction .add [1] S256 (mulf v1 v1) 0x00000000#32 reduces_S256x4096_S256 (.inl rfl) rfl

/-- The same as a column. -/
def sqCol (v1 : FVec Ideal S256x4096 .f32) : FVec Ideal S256x1 .f32 := shapeCast S256x1 (sqV v1) shapeCasts_S256_S256x1

/-- The clamped squared distances, before the diagonal is forced. -/
def preV (v1 : FVec Ideal S256x4096 .f32) : FVec Ideal S256x256 .f32 :=
  maximumf
    (subf
      (addf (broadcastTo S256x256 (sqCol v1) broadcasts_S256x1_S256x256)
        (broadcastTo S256x256 (transpose S1x256 [1, 0] (sqCol v1) transposes_S256x1_p1_0_S1x256) broadcasts_S1x256_S256x256))
      (mulf (broadcast S256x256 (Scalar.ofBits .f32 0x40000000#32)) (gramV v1)))
    (broadcast S256x256 (Scalar.ofBits .f32 0x00000000#32))

/-- The clamped squared distances with the diagonal forced to zero. -/
def distV (v1 : FVec Ideal S256x4096 .f32) : FVec Ideal S256x256 .f32 :=
  select (cmpi .eq (iota .tc S256x256 32 [0] iota_S256x256_d0_w32) (iota .tc S256x256 32 [1] iota_S256x256_d1_w32))
    (broadcast S256x256 (Scalar.ofBits .f32 0x00000000#32)) (preV v1)

/-- The densities, as a row. -/
def densV (v1 : FVec Ideal S256x4096 .f32) : FVec Ideal S1x256 .f32 :=
  transpose S1x256 [1, 0]
    (divf
      (shapeCast S256x1
        (multiReduction .add [1] S256 (exp (mulf (broadcast S256x256 (Scalar.ofBits .f32 0xBF000000#32)) (distV v1))) 0x00000000#32
          reduces_S256x256_S256 (.inl rfl) rfl)
        shapeCasts_S256_S256x1)
      (broadcast S256x1 (Scalar.ofBits .f32 0x43800000#32)))
    transposes_S256x1_p1_0_S1x256

/-- The hidden layer, as a row. -/
def hidV (v1 : FVec Ideal S256x4096 .f32) (x1 : FVec Ideal S256x64 .f32) (x2 : FVec Ideal S1x64 .f32) : FVec Ideal S1x64 .f32 :=
  maximumf
    (addf (matmul dot_S1x256_S256x64_S1x64_1_0_0_1_n_n (some .fp32) (densV v1) x1 (constant S1x64 .f32 0x00000000#32))
      (shapeCast S1x64 x2 shapeCasts_S1x64_S1x64))
    (broadcast S1x64 (Scalar.ofBits .f32 0x00000000#32))

/-- The block scaled row by row by the gate plus one half, with its leading unit axis. -/
def outV (v1 : FVec Ideal S256x4096 .f32) (v37 : FVec Ideal S1x256 .f32) (v38 : FVec Ideal S1x256 .f32) : FVec Ideal S1x256x4096 .f32 :=
  shapeCast S1x256x4096
    (mulf v1
      (broadcastTo S256x4096
        (addf
          (transpose S256x1 [1, 0] (logistic (addf v37 (shapeCast S1x256 v38 shapeCasts_S1x256_S1x256))) transposes_S1x256_p1_0_S256x1)
          (broadcast S256x1 (Scalar.ofBits .f32 0x3F000000#32)))
        broadcasts_S256x1_S256x4096))
    shapeCasts_S256x4096_S1x256x4096

/-- The printed second-layer payload is the hidden layer through the second matrix. -/
theorem pay3_eq (x0 : FVec Ideal S1x256x4096 .f32) (x1 : FVec Ideal S256x64 .f32) (x2 : FVec Ideal S1x64 .f32) (x3 : FVec Ideal S64x256 .f32) :
    k0_pay3 x0 x1 x2 x3
      = matmul dot_S1x64_S64x256_S1x256_1_0_0_1_n_n (some .fp32) (hidV (k0_pay2 x0) x1 x2) x3 (constant S1x256 .f32 0x00000000#32) := rfl

/-- The printed store payload is the scaled block. -/
theorem pay1_eq (v1 : FVec Ideal S256x4096 .f32) (v37 : FVec Ideal S1x256 .f32) (v38 : FVec Ideal S1x256 .f32) :
    k0_pay1 v1 v37 v38 = outV v1 v37 v38 := rfl

/-! ## The stages at an index -/

variable (v1 : FVec Ideal S256x4096 .f32)

theorem gramV_apply (c d : Fin 256) : gramV v1 (ix2 c d) = gram (M v1) c d := by
  unfold gramV
  rw [mm_gram]
  rfl

theorem sqV_apply (c : Fin 256) : sqV v1 (ix1 c) = sq (M v1) c := by
  unfold sqV
  refine (row_sum (mulf v1 v1) reduces_S256x4096_S256 (.inl rfl) rfl c).trans ?_
  rfl

theorem preV_apply (c d : Fin 256) : preV v1 (ix2 c d) = max (sq (M v1) c + sq (M v1) d - W2 * gram (M v1) c d) 0 := by
  unfold preV
  rw [maximumf_apply, subf_apply, addf_apply, mulf_apply, spread_col, spread_row, col_to_row]
  unfold sqCol
  rw [cast_col, cast_col, sqV_apply, sqV_apply, gramV_apply]
  show max (_ - Ideal.ofBits .f32 0x40000000#32 * _) (Ideal.ofBits .f32 0x00000000#32) = _
  rw [Ideal.ofBits_zero_f32]

theorem distV_apply (c d : Fin 256) : distV v1 (ix2 c d) = dist (M v1) c d := by
  unfold distV
  rw [select_apply, preV_apply]
  have hC : cmpi .eq (iota .tc S256x256 32 [0] iota_S256x256_d0_w32) (iota .tc S256x256 32 [1] iota_S256x256_d1_w32) (ix2 c d)
      = if c.val = d.val then 1#1 else 0#1 := by
    show IntOp.cmpi .eq (iota .tc S256x256 32 [0] iota_S256x256_d0_w32 (ix2 c d)) (iota .tc S256x256 32 [1] iota_S256x256_d1_w32 (ix2 c d)) = _
    rw [iota_single_apply, iota_single_apply]
    exact cmpi_eq_small c.val d.val c.isLt d.isLt
  rw [hC]
  by_cases h : c = d
  · subst h
    rw [if_pos rfl, select_one, dist_self]
    exact Ideal.ofBits_zero_f32
  · rw [if_neg (fun e => h (Fin.ext e)), select_zero]
    rfl

theorem densV_apply (c : Fin 256) : densV v1 (ix2 (0 : Fin 1) c) = dens (M v1) c := by
  unfold densV
  rw [col_to_row, divf_apply, cast_col]
  refine (congrArg₂ Ideal.div (row_sum _ reduces_S256x256_S256 (.inl rfl) rfl c) rfl).trans ?_
  unfold dens
  refine congrArg₂ Ideal.div (Finset.sum_congr rfl fun k _ => ?_) rfl
  show Ideal.exp (_ * distV v1 (ix2 c k)) = _
  rw [distV_apply]
  rfl

theorem hidV_apply (x1 : FVec Ideal S256x64 .f32) (x2 : FVec Ideal S1x64 .f32) (r : Fin 64) :
    hidV v1 x1 x2 (ix2 (0 : Fin 1) r) = hid (M v1) (mat x1) (fun r => x2 (ix2 (0 : Fin 1) r)) r := by
  unfold hidV
  rw [maximumf_apply, addf_apply, shapeCast_self, mm_first]
  show max (_ + _) (Ideal.ofBits .f32 0x00000000#32) = _
  rw [Ideal.ofBits_zero_f32]
  unfold hid
  refine congrArg (max · 0) (congrArg (· + _) (Finset.sum_congr rfl fun k _ => ?_))
  rw [densV_apply]
  rfl

/-- The whole body at an entry (0, c, n) of the stored block: the loaded entry scaled by the gate of row c plus one half,
    the gate computed from the loaded block's matrix, the two weight matrices and the two bias rows. -/
theorem body_apply (x0 : FVec Ideal S1x256x4096 .f32) (x1 : FVec Ideal S256x64 .f32) (x2 : FVec Ideal S1x64 .f32)
    (x3 : FVec Ideal S64x256 .f32) (x4 : FVec Ideal S1x256 .f32) (c : Fin 256) (n : Fin 4096) :
    k0_pay1 (F := Ideal) (k0_pay2 (F := Ideal) x0) (k0_pay3 (F := Ideal) x0 x1 x2 x3) x4 (ix3 (0 : Fin 1) c n)
      = x0 (ix3 (0 : Fin 1) c n)
        * (gate (fun c n => x0 (ix3 (0 : Fin 1) c n)) (mat x1) (fun r => x2 (ix2 (0 : Fin 1) r)) (mat x3)
            (fun c => x4 (ix2 (0 : Fin 1) c)) c + Wh) := by
  have hM : M (k0_pay2 (F := Ideal) x0) = fun c n => x0 (ix3 (0 : Fin 1) c n) := by
    funext c n
    show k0_pay2 (F := Ideal) x0 (ix2 c n) = _
    unfold k0_pay2
    exact drop_unit x0 shapeCasts_S1x256x4096_S256x4096 c n
  rw [pay1_eq, pay3_eq]
  unfold outV
  rw [add_unit, mulf_apply, spread_col, addf_apply, row_to_col, shapeCast_self]
  show k0_pay2 (F := Ideal) x0 (ix2 c n) * (Ideal.logistic (_ + _) + Ideal.ofBits .f32 0x3F000000#32) = _
  rw [mm_second]
  unfold gate
  rw [← hM]
  refine congrArg₂ (· * ·) (congrFun (congrFun hM c) n) (congrArg (· + _) (congrArg Ideal.logistic (congrArg (· + _) (Finset.sum_congr rfl fun k _ => ?_))))
  rw [hidV_apply]
  rfl

end Cert.Kde.Ker

end
-- ==== Proof.KerArray.lean ====
/-
  From blocks to the array. Grid point `t` of the 32 stages batch `t` of the [32, 256, 4096] array (the whole 256 × 4096
  slice), the two weight matrices and the two bias rows whole, and writes back batch `t` of the result. What it writes
  back is batch `t` of ONE function of the arrays as the region finds them — the specification over the [32, 256, 4096]
  layout — because the body's value at entry (0, c, n) of its block depends on the staged blocks only through batch `t`'s
  matrix and the weights. The 32 blocks cover the result array (index (b, c, n) lies in block `b`), so after the region the
  array is that function.
-/
import proofs.«113556_j83202106458478_2_alg».proof.Proof.Gen.KernelIdeal.Frame
import proofs.«113556_j83202106458478_2_alg».proof.Proof.KerStages
import Idealize.ShloMosaic.Lib.Pipeline.Value

set_option maxRecDepth 16384

noncomputable section

open scoped BigOperators

namespace Cert.Kde.KerArr

open Cert.KernelIdeal Cert.KernelIdeal.Gen Idealize.ShloMosaic Idealize.ShloMosaic.TcCoe Idealize.SL.Sem
open Idealize.ShloMosaic.ValueIdx Cert.Kde
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 32 points: the batch axis of the first operand and of the result moves with the point,
    every other block index is zero. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- A grid point as a batch number. -/
def batchOf (t : Fin cfg0.N) : Fin 32 := ⟨t.val, lt_of_lt_of_eq t.isLt N_0⟩

/-- The result over the [32, 256, 4096] layout, of the arrays as the region finds them. -/
def GK (c : Dev nD) : S32x256x4096.Idx → EReal :=
  G3 (V m c main_v0 : S32x256x4096.Idx → EReal) (mat (V m c main_arg1 : S256x64.Idx → EReal))
    (fun r => (V m c main_v1 : S1x64.Idx → EReal) (ix2 (0 : Fin 1) r)) (mat (V m c main_arg3 : S64x256.Idx → EReal))
    (fun k => (V m c main_v2 : S1x256.Idx → EReal) (ix2 (0 : Fin 1) k))

/-- WHAT POINT `t` WRITES BACK is block `t` of that function. -/
theorem flushed_eq (c : Dev nD) (t : Fin cfg0.N) :
    (dats m 0 c).flushed 5 t = ((cfg0.win 5).blk t).view.read (Elt Ideal) (GK m c) := by
  show (cfg0.win 5).cut (grid0.coords t) ((dats m 0 c).after 5 t) = _
  rw [after0_5]
  unfold out0_5
  rw [View.canon_unit_zero hz3]
  simp only [View.ld_unit_zero (S := S1x256x4096) hz3, View.ld_unit_zero (S := S256x64) hz2, View.ld_unit_zero (S := S1x64) hz2,
    View.ld_unit_zero (S := S64x256) hz2, View.ld_unit_zero (S := S1x256) hz2]
  obtain ⟨e00, e01, e02, e50, e51, e52, e10, e11, e20, e21, e30, e31, e40, e41⟩ := idx_facts t
  refine funext fun (j : S1x256x4096.Idx) => ?_
  obtain ⟨z, p, n, rfl⟩ : ∃ (z : Fin 1) (p : Fin 256) (n : Fin 4096), j = ix3 z p n := ⟨j 0, j 1, j 2, eq_ix3 j⟩
  obtain rfl : z = 0 := Fin.ext (by omega)
  show k0_pay1 (k0_pay2 (iblk m c 0 t)) (k0_pay3 (iblk m c 0 t) (iblk m c 1 t) (iblk m c 2 t) (iblk m c 3 t)) (iblk m c 4 t)
      (ix3 (0 : Fin 1) p n) = GK m c (((cfg0.win 5).blk t).view.emb (ix3 (0 : Fin 1) p n))
  refine (Ker.body_apply (iblk m c 0 t) (iblk m c 1 t) (iblk m c 2 t) (iblk m c 3 t) (iblk m c 4 t) p n).trans ?_
  have he : ((cfg0.win 5).blk t).view.emb (ix3 (0 : Fin 1) p n) = ix3 (batchOf t) p n := by
    funext a; apply Fin.ext
    match a with
    | ⟨0, _⟩ => show win0_5.index t (0 : Fin 3) * 1 + 1 * 0 = t.val; omega
    | ⟨1, _⟩ => show win0_5.index t (1 : Fin 3) * 256 + 1 * p.val = p.val; omega
    | ⟨2, _⟩ => show win0_5.index t (2 : Fin 3) * 4096 + 1 * n.val = n.val; omega
  have h0 : ∀ (p' : Fin 256) (n' : Fin 4096), iblk m c 0 t (ix3 (0 : Fin 1) p' n')
      = (V m c main_v0 : S32x256x4096.Idx → EReal) (ix3 (batchOf t) p' n') := fun p' n' => by
    show V m c main_v0 (((cfg0.win 0).blk t).view.emb (ix3 (0 : Fin 1) p' n')) = V m c main_v0 (ix3 (batchOf t) p' n')
    refine congrArg (V m c main_v0) (funext fun a => Fin.ext ?_)
    match a with
    | ⟨0, _⟩ => show win0_0.index t (0 : Fin 3) * 1 + 1 * 0 = t.val; omega
    | ⟨1, _⟩ => show win0_0.index t (1 : Fin 3) * 256 + 1 * p'.val = p'.val; omega
    | ⟨2, _⟩ => show win0_0.index t (2 : Fin 3) * 4096 + 1 * n'.val = n'.val; omega
  have h1 : ∀ (k : Fin 256) (r : Fin 64), iblk m c 1 t (ix2 k r) = (V m c main_arg1 : S256x64.Idx → EReal) (ix2 k r) := fun k r => by
    show V m c main_arg1 (((cfg0.win 1).blk t).view.emb (ix2 k r)) = V m c main_arg1 (ix2 k r)
    refine congrArg (V m c main_arg1) (funext fun a => Fin.ext ?_)
    match a with
    | ⟨0, _⟩ => show win0_1.index t (0 : Fin 2) * 256 + 1 * k.val = k.val; omega
    | ⟨1, _⟩ => show win0_1.index t (1 : Fin 2) * 64 + 1 * r.val = r.val; omega
  have h2 : ∀ (r : Fin 64), iblk m c 2 t (ix2 (0 : Fin 1) r) = (V m c main_v1 : S1x64.Idx → EReal) (ix2 (0 : Fin 1) r) := fun r => by
    show V m c main_v1 (((cfg0.win 2).blk t).view.emb (ix2 (0 : Fin 1) r)) = V m c main_v1 (ix2 (0 : Fin 1) r)
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 64 + 1 * r.val = r.val; omega
  have h3 : ∀ (k : Fin 64) (q : Fin 256), iblk m c 3 t (ix2 k q) = (V m c main_arg3 : S64x256.Idx → EReal) (ix2 k q) := fun k q => by
    show V m c main_arg3 (((cfg0.win 3).blk t).view.emb (ix2 k q)) = V m c main_arg3 (ix2 k q)
    refine congrArg (V m c main_arg3) (funext fun a => Fin.ext ?_)
    match a with
    | ⟨0, _⟩ => show win0_3.index t (0 : Fin 2) * 64 + 1 * k.val = k.val; omega
    | ⟨1, _⟩ => show win0_3.index t (1 : Fin 2) * 256 + 1 * q.val = q.val; omega
  have h4 : ∀ (q : Fin 256), iblk m c 4 t (ix2 (0 : Fin 1) q) = (V m c main_v2 : S1x256.Idx → EReal) (ix2 (0 : Fin 1) q) := fun q => by
    show V m c main_v2 (((cfg0.win 4).blk t).view.emb (ix2 (0 : Fin 1) q)) = V m c main_v2 (ix2 (0 : Fin 1) q)
    refine congrArg (V m c main_v2) (funext fun a => Fin.ext ?_)
    match a with
    | ⟨0, _⟩ => show win0_4.index t (0 : Fin 2) * 1 + 1 * 0 = 0; omega
    | ⟨1, _⟩ => show win0_4.index t (1 : Fin 2) * 256 + 1 * q.val = q.val; omega
  rw [he]
  have hX : (fun (p' : Fin 256) (n' : Fin 4096) => iblk m c 0 t (ix3 (0 : Fin 1) p' n'))
      = batch (V m c main_v0 : S32x256x4096.Idx → EReal) (batchOf t) := funext fun p' => funext fun n' => h0 p' n'
  have hW1 : mat (iblk m c 1 t) = mat (V m c main_arg1 : S256x64.Idx → EReal) := funext fun k => funext fun r => h1 k r
  have hB1 : (fun r => iblk m c 2 t (ix2 (0 : Fin 1) r)) = fun r => (V m c main_v1 : S1x64.Idx → EReal) (ix2 (0 : Fin 1) r) :=
    funext fun r => h2 r
  have hW2 : mat (iblk m c 3 t) = mat (V m c main_arg3 : S64x256.Idx → EReal) := funext fun k => funext fun q => h3 k q
  have hB2 : (fun q => iblk m c 4 t (ix2 (0 : Fin 1) q)) = fun q => (V m c main_v2 : S1x256.Idx → EReal) (ix2 (0 : Fin 1) q) :=
    funext fun q => h4 q
  rw [hX, hW1, hB1, hW2, hB2, h0]
  rfl

/-- An index of the result array is in point `t`'s block iff each coordinate is in the block's range on its axis. -/
theorem mem_blk (t : Fin cfg0.N) (i : S32x256x4096.Idx) :
    i ∈ ((cfg0.win 5).blk t).view.set ↔ ∀ a : Fin 3, win0_5.index t a * S1x256x4096.size a ≤ (i a).val
      ∧ (i a).val < win0_5.index t a * S1x256x4096.size a + S1x256x4096.size a := by
  show i ∈ ((View.whole main_v3).slice (win0_5.rect t)).set ↔ _
  rw [View.set_slice_whole, Rect.mem_set_unit]
  exact Iff.rfl

/-- Every index of the result array lies in the block of the point numbered by its batch coordinate. -/
theorem cover (i : S32x256x4096.Idx) : ∃ t : Fin cfg0.N, (cfg0.win 5).flush t = true ∧ i ∈ ((cfg0.win 5).blk t).view.set := by
  have hi0 : (i 0).val < 32 := (i 0).isLt
  have hi1 : (i 1).val < 256 := (i 1).isLt
  have hi2 : (i 2).val < 4096 := (i 2).isLt
  let t : Fin cfg0.N := ⟨(i 0).val, lt_of_lt_of_eq hi0 N_0.symm⟩
  obtain ⟨-, -, -, e50, e51, e52, -⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; rw [e50]; show (i 0).val * 1 ≤ (i 0).val ∧ (i 0).val < (i 0).val * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 4096 ≤ (i 2).val ∧ (i 2).val < win0_5.index t (2 : Fin 3) * 4096 + 4096; omega

/-- THE RESULT ARRAY after the region is the specification of the arrays as the region finds them. -/
theorem final (c : Dev nD) : (dats m 0 c).arrAt 5 cfg0.N = GK m c :=
  (dats m 0 c).arrAt_eq_of_cover 5 (GK m c) (fun t _ => flushed_eq m c t) cover

end Cert.Kde.KerArr

end
-- ==== Proof.KerRun.lean ====
/-
  The kernel program's run, read: the host lines before the region re-lay the first argument as [32, 256, 4096] and the two
  biases as rows; the region leaves the specification over that layout in its result array; the host line after it
  re-lays that array as [32, 256, 64, 64]. Entry (b, c, h, w) of the program's result is therefore entry (b, c, 64·h + w)
  of the region's array, which is the argument's entry (b, c, h, w) scaled by batch b's gate of channel c plus one half.
-/
import proofs.«113556_j83202106458478_2_alg».proof.Proof.KerArray
import Idealize.ShloMosaic.Lib.StableHlo.Run

set_option maxRecDepth 16384

noncomputable section

open scoped BigOperators

namespace Cert.Kde.KerRun

open Cert.KernelIdeal Cert.KernelIdeal.Gen Idealize.ShloMosaic Idealize.ShloMosaic.TcCoe Idealize.SL.Sem
open Idealize.ShloMosaic.ValueIdx Idealize.ShloMosaic.StableHlo Cert.Kde Cert.Kde.KerArr
open Idealize.ShloMosaic.Pipeline (Dat)

variable (m : (ℓ : Loc nD τ sig) → Buf (Elt Ideal) ℓ) (ρ : Dev nD → PrngReg)

/-- The region finds the first argument re-laid as [32, 256, 4096]. -/
theorem V_v0 (c : Dev nD) : (V m c main_v0 : S32x256x4096.Idx → EReal)
    = shapeCast S32x256x4096 (m ((c : Thread nD τ).loc main_arg0)) shapeCasts_S32x256x64x64_S32x256x4096 := by
  show StableHlo.after hostOps0 (fun b => m (c, b)) (Proc.devRef .tc main_v0) = _
  after_results
  rfl

/-- The region finds the first bias as a row. -/
theorem V_v1 (c : Dev nD) : (V m c main_v1 : S1x64.Idx → EReal)
    = shapeCast S1x64 (m ((c : Thread nD τ).loc main_arg2)) shapeCasts_S64_S1x64 := by
  show StableHlo.after hostOps0 (fun b => m (c, b)) (Proc.devRef .tc main_v1) = _
  after_results
  rfl

/-- The region finds the second bias as a row. -/
theorem V_v2 (c : Dev nD) : (V m c main_v2 : S1x256.Idx → EReal)
    = shapeCast S1x256 (m ((c : Thread nD τ).loc main_arg4)) shapeCasts_S256_S1x256 := by
  show StableHlo.after hostOps0 (fun b => m (c, b)) (Proc.devRef .tc main_v2) = _
  after_results
  rfl

/-- A vector viewed as a row: entry (0, r) is entry r. -/
theorem row_cast {p : Nat} (v : (⟨1, ![p]⟩ : Shape).Idx → EReal) (h : (⟨1, ![p]⟩ : Shape).ShapeCasts ⟨2, ![1, p]⟩) (r : Fin p) :
    shapeCast ⟨2, ![1, p]⟩ v h (ix2 (0 : Fin 1) r) = v (ix1 r) :=
  shapeCast_apply v h _ _ (by
    rw [Shape.rowMajor_val_one, Shape.rowMajor_val_two]
    show r.val = 0 * p + r.val
    rw [Nat.zero_mul, Nat.zero_add])

/-- The specification the region leaves, in terms of the program's arguments. -/
theorem GK_eq (c : Dev nD) : GK m c
    = G3 (shapeCast S32x256x4096 (m ((c : Thread nD τ).loc main_arg0)) shapeCasts_S32x256x64x64_S32x256x4096)
        (mat (m ((c : Thread nD τ).loc main_arg1) : S256x64.Idx → EReal)) (vec (m ((c : Thread nD τ).loc main_arg2) : S64.Idx → EReal))
        (mat (m ((c : Thread nD τ).loc main_arg3) : S64x256.Idx → EReal)) (vec (m ((c : Thread nD τ).loc main_arg4) : S256.Idx → EReal)) := by
  unfold GK
  rw [V_v0, V_v1, V_v2, V_main_arg1, V_main_arg3]
  have hb1 : (fun r => shapeCast S1x64 (m ((c : Thread nD τ).loc main_arg2)) shapeCasts_S64_S1x64 (ix2 (0 : Fin 1) r))
      = vec (m ((c : Thread nD τ).loc main_arg2) : S64.Idx → EReal) := funext fun r => row_cast _ _ r
  have hb2 : (fun k => shapeCast S1x256 (m ((c : Thread nD τ).loc main_arg4)) shapeCasts_S256_S1x256 (ix2 (0 : Fin 1) k))
      = vec (m ((c : Thread nD τ).loc main_arg4) : S256.Idx → EReal) := funext fun k => row_cast _ _ k
  rw [hb1, hb2]

/-- The [32, 256, 4096] specification re-laid as [32, 256, 64, 64] is the [32, 256, 64, 64] specification. -/
theorem relay (x : S32x256x64x64.Idx → EReal) (w1 : Fin 256 → Fin 64 → EReal) (b1 : Fin 64 → EReal) (w2 : Fin 64 → Fin 256 → EReal)
    (b2 : Fin 256 → EReal) :
    shapeCast S32x256x64x64 (G3 (shapeCast S32x256x4096 x shapeCasts_S32x256x64x64_S32x256x4096) w1 b1 w2 b2)
        shapeCasts_S32x256x4096_S32x256x64x64
      = G4 x (shapeCast S32x256x4096 x shapeCasts_S32x256x64x64_S32x256x4096) w1 b1 w2 b2 := by
  funext i
  obtain ⟨b, c, h, w, rfl⟩ : ∃ (b : Fin 32) (c : Fin 256) (h : Fin 64) (w : Fin 64), i = ix4 b c h w :=
    ⟨i 0, i 1, i 2, i 3, eq_ix4 i⟩
  have hb := b.isLt; have hc := c.isLt; have hh := h.isLt; have hw := w.isLt
  refine (shapeCast_apply _ shapeCasts_S32x256x4096_S32x256x64x64 (ix4 b c h w)
    (ix3 b c (⟨h.val * 64 + w.val, by omega⟩ : Fin 4096)) (by
      rw [Shape.rowMajor_val_three, Shape.rowMajor_val_four]
      show (b.val * 256 + c.val) * 4096 + (h.val * 64 + w.val) = ((b.val * 256 + c.val) * 64 + h.val) * 64 + w.val
      omega)).trans ?_
  unfold G3 G4
  have hy : shapeCast S32x256x4096 x shapeCasts_S32x256x64x64_S32x256x4096 (ix3 b c (⟨h.val * 64 + w.val, by omega⟩ : Fin 4096))
      = x (ix4 b c h w) :=
    shapeCast_apply x shapeCasts_S32x256x64x64_S32x256x4096 _ _ (by
      rw [Shape.rowMajor_val_three, Shape.rowMajor_val_four]
      show ((b.val * 256 + c.val) * 64 + h.val) * 64 + w.val = (b.val * 256 + c.val) * 4096 + (h.val * 64 + w.val)
      omega)
  show _ * _ = _ * _
  rw [hy]

/-- After the frame run, the program's result is the [32, 256, 64, 64] specification of its arguments. -/
theorem result (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v4)
      = G4 (m ((c : Thread nD τ).loc main_arg0) : S32x256x64x64.Idx → EReal)
          (shapeCast S32x256x4096 (m ((c : Thread nD τ).loc main_arg0)) shapeCasts_S32x256x64x64_S32x256x4096)
          (mat (m ((c : Thread nD τ).loc main_arg1) : S256x64.Idx → EReal)) (vec (m ((c : Thread nD τ).loc main_arg2) : S64.Idx → EReal))
          (mat (m ((c : Thread nD τ).loc main_arg3) : S64x256.Idx → EReal)) (vec (m ((c : Thread nD τ).loc main_arg4) : S256.Idx → EReal)) := by
  refine ((h c).2 main_v4 (Pipeline.mem_restRefs_of main_v4 (by decide) (by decide))).trans ?_
  unfold Pipeline.afterTail₀
  show StableHlo.after hostOps1 _ (Proc.devRef .tc main_v4) = _
  after_results
  rw [Pipeline.withArrays_arr spec0 launch0.win.arr_inj c _ _ 5, KerArr.final, GK_eq]
  exact relay _ _ _ _ _

/-- The kernel program's run: it terminates with its result at the specification and its arguments unchanged. -/
theorem run : θ_run defs (onTc (τ := τ) (main (F := Ideal))) ⟨m, fun _ => 0, ρ⟩ fun r => ∀ c : Dev nD,
      r.2.mem ((c : Thread nD τ).loc main_v4)
        = G4 (m ((c : Thread nD τ).loc main_arg0) : S32x256x64x64.Idx → EReal)
            (shapeCast S32x256x4096 (m ((c : Thread nD τ).loc main_arg0)) shapeCasts_S32x256x64x64_S32x256x4096)
            (mat (m ((c : Thread nD τ).loc main_arg1) : S256x64.Idx → EReal)) (vec (m ((c : Thread nD τ).loc main_arg2) : S64.Idx → EReal))
            (mat (m ((c : Thread nD τ).loc main_arg3) : S64x256.Idx → EReal)) (vec (m ((c : Thread nD τ).loc main_arg4) : S256.Idx → EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨result m r h c,
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.Kde.KerRun

end
-- ==== Proof.RefSide.lean ====
/-
  The reference, stage by stage, is the specification: each of its host operations read at an index of coordinates
  `(b, c)`, `(b, c, d)` or `(b, r)` is the corresponding entry of batch `b`'s squared norms, Gram matrix, clamped distances,
  kernel values, densities, hidden layer and gate. The re-readings are by the operations' read-at-an-index lemmas; the laws
  used are `0 + s = s` (a host sum starts from the zero word), `x / 1 = x` (the bandwidth's square) and that
  `1 / (1 + exp (−z))` is the logistic function of `z`.
-/
import proofs.«113556_j83202106458478_2_alg».proof.Proof.Gen.ReferenceIdeal.Read
import proofs.«113556_j83202106458478_2_alg».proof.Proof.Spec

noncomputable section

open scoped BigOperators

namespace Cert.Kde.Ref

open Cert.ReferenceIdeal Cert.ReferenceIdeal.Read Idealize.ShloMosaic Idealize.ShloMosaic.ValueIdx Cert.Kde

variable (x0 : (⟨S32x256x64x64, .f32⟩ : BufTy).Contents (Elt Ideal)) (x1 : (⟨S256x64, .f32⟩ : BufTy).Contents (Elt Ideal))
  (x2 : (⟨S64, .f32⟩ : BufTy).Contents (Elt Ideal)) (x3 : (⟨S64x256, .f32⟩ : BufTy).Contents (Elt Ideal))
  (x4 : (⟨S256, .f32⟩ : BufTy).Contents (Elt Ideal))

/-- The reference's [32, 256, 4096] re-reading of its first argument. -/
abbrev Y : S32x256x4096.Idx → EReal := val_main_v0 (F := Ideal) x0

/-- The row sums of squares are the squared norms. -/
theorem sq_eq (b : Fin 32) (c : Fin 256) : val_main_v2 (F := Ideal) x0 (ix2 b c) = sq (batch (Y x0) b) c := by
  rw [val_main_v2_apply]
  show Ideal.ofBits .f32 0x00000000#32 + _ = _
  rw [Ideal.ofBits_zero_f32, zero_add]
  unfold sq
  refine Finset.sum_congr rfl fun k _ => ?_
  have e : idx_main_v2 (ix2 b c) k = ix3 b c k := funext fun a => by
    match a with | ⟨0, _⟩ => rfl | ⟨1, _⟩ => rfl | ⟨2, _⟩ => rfl
  rw [e]; rfl

/-- The batched product of the array with itself over positions is the Gram matrix. -/
theorem gram_eq (b : Fin 32) (c d : Fin 256) : val_main_v3 (F := Ideal) x0 (ix3 b c d) = gram (batch (Y x0) b) c d := by
  rw [val_main_v3_apply]
  unfold gram
  refine Finset.sum_congr rfl fun k _ => ?_
  have el : lidx_main_v3 (ix3 b c d) k = ix3 b c k := funext fun a => by
    match a with | ⟨0, _⟩ => rfl | ⟨1, _⟩ => rfl | ⟨2, _⟩ => rfl
  have er : ridx_main_v3 (ix3 b c d) k = ix3 b d k := funext fun a => by
    match a with | ⟨0, _⟩ => rfl | ⟨1, _⟩ => rfl | ⟨2, _⟩ => rfl
  rw [el, er]; rfl

/-- The clamped combination of norms and products is the clamped distance. -/
theorem dist_eq (b : Fin 32) (c d : Fin 256) : val_main_v13 (F := Ideal) x0 (ix3 b c d) = dist (batch (Y x0) b) c d := by
  rw [val_main_v13_apply, val_main_v11_apply, val_main_v8_apply, val_main_v6_apply, val_main_v4_apply, val_main_v7_apply,
    val_main_v5_apply, val_main_v10_apply, val_main_v9_apply, val_main_v12_apply]
  have e1 : idx_main_v4 (idx_main_v6 (ix3 b c d)) = ix2 b c := funext fun a => by
    match a with | ⟨0, _⟩ => rfl | ⟨1, _⟩ => rfl
  have e2 : idx_main_v5 (idx_main_v7 (ix3 b c d)) = ix2 b d := funext fun a => by
    match a with | ⟨0, _⟩ => rfl | ⟨1, _⟩ => rfl
  rw [e1, e2, sq_eq, sq_eq, gram_eq]
  show max (_ - Ideal.ofBits .f32 0x40000000#32 * _) (Ideal.ofBits .f32 0x00000000#32) = _
  rw [Ideal.ofBits_zero_f32]; rfl

/-- The exponential of minus one half of the distance over the squared bandwidth, which is one. -/
theorem kern_eq (b : Fin 32) (c d : Fin 256) :
    val_main_v18 (F := Ideal) x0 (ix3 b c d) = Ideal.exp (Wmh * dist (batch (Y x0) b) c d) := by
  rw [val_main_v18_apply, val_main_v17_apply, val_main_v15_apply, val_main_v14_apply, val_main_v16_apply, dist_eq]
  show Ideal.exp (Ideal.div (Ideal.ofBits .f32 0xBF000000#32 * _) (Ideal.ofBits .f32 0x3F800000#32)) = _
  rw [Ideal.ofBits_one_f32, div_one]

/-- The row sums of the kernel values over 256 are the densities. -/
theorem dens_eq (b : Fin 32) (c : Fin 256) : val_main_v21 (F := Ideal) x0 (ix2 b c) = dens (batch (Y x0) b) c := by
  rw [val_main_v21_apply, val_main_v19_apply, val_main_v20_apply]
  show Ideal.div (Ideal.ofBits .f32 0x00000000#32 + _) (Ideal.ofBits .f32 0x43800000#32) = _
  rw [Ideal.ofBits_zero_f32, zero_add]
  unfold dens
  refine congrArg (Ideal.div · _) (Finset.sum_congr rfl fun k _ => ?_)
  have e : idx_main_v19 (ix2 b c) k = ix3 b c k := funext fun a => by
    match a with | ⟨0, _⟩ => rfl | ⟨1, _⟩ => rfl | ⟨2, _⟩ => rfl
  rw [e, kern_eq]

/-- The first layer with its bias and rectifier is the hidden layer. -/
theorem hid_eq (b : Fin 32) (r : Fin 64) :
    val_main_v26 (F := Ideal) x0 x1 x2 (ix2 b r) = hid (batch (Y x0) b) (mat x1) (vec x2) r := by
  rw [val_main_v26_apply, val_main_v25_apply, val_main_v22_apply, val_main_v24_apply, val_main_v23_apply,
    val_main_call0_v0_apply]
  have e : idx_main_v23 (idx_main_v24 (ix2 b r)) = ix1 r := funext fun a => by
    match a with | ⟨0, _⟩ => rfl
  rw [e]
  show max (_ + _) (Ideal.ofBits .f32 0x00000000#32) = _
  rw [Ideal.ofBits_zero_f32]
  unfold hid
  refine congrArg (max · 0) (congrArg (· + _) (Finset.sum_congr rfl fun k _ => ?_))
  have el : lidx_main_v22 (ix2 b r) k = ix2 b k := funext fun a => by
    match a with | ⟨0, _⟩ => rfl | ⟨1, _⟩ => rfl
  have er : ridx_main_v22 (ix2 b r) k = ix2 k r := funext fun a => by
    match a with | ⟨0, _⟩ => rfl | ⟨1, _⟩ => rfl
  rw [el, er, dens_eq]; rfl

/-- The second layer with its bias, through `1 / (1 + exp (−z))`, is the gate. -/
theorem gate_eq (b : Fin 32) (c : Fin 256) :
    val_main_v36 (F := Ideal) x0 x1 x2 x3 x4 (ix2 b c) = gate (batch (Y x0) b) (mat x1) (vec x2) (mat x3) (vec x4) c := by
  rw [val_main_v36_apply, val_main_v35_apply, val_main_v34_apply, val_main_v33_apply, val_main_v32_apply, val_main_v31_apply,
    val_main_v30_apply, val_main_v27_apply, val_main_v29_apply, val_main_v28_apply]
  have e : idx_main_v28 (idx_main_v29 (ix2 b c)) = ix1 c := funext fun a => by
    match a with | ⟨0, _⟩ => rfl
  rw [e]
  show Ideal.div (Ideal.ofBits .f32 0x3F800000#32) (Ideal.ofBits .f32 0x3F800000#32 + Ideal.exp (-(_ + _))) = _
  rw [Ideal.ofBits_one_f32]
  unfold gate
  show Ideal.logistic _ = _
  refine congrArg Ideal.logistic (congrArg (· + _) (Finset.sum_congr rfl fun k _ => ?_))
  have el : lidx_main_v27 (ix2 b c) k = ix2 b k := funext fun a => by
    match a with | ⟨0, _⟩ => rfl | ⟨1, _⟩ => rfl
  have er : ridx_main_v27 (ix2 b c) k = ix2 k c := funext fun a => by
    match a with | ⟨0, _⟩ => rfl | ⟨1, _⟩ => rfl
  rw [el, er, hid_eq]; rfl

/-- The reference's result is the specification over the [32, 256, 64, 64] layout. -/
theorem result_eq : val_main_v41 (F := Ideal) x0 x1 x2 x3 x4 = G4 x0 (Y x0) (mat x1) (vec x2) (mat x3) (vec x4) := by
  funext i
  rw [val_main_v41_apply, val_main_v40_apply, val_main_v39_apply, val_main_v37_apply, val_main_v38_apply]
  have e : idx_main_v37 (idx_main_v40 i) = ix2 (n0 := 32) (n1 := 256) (i 0) (i 1) := funext fun a => by
    match a with | ⟨0, _⟩ => rfl | ⟨1, _⟩ => rfl
  have g := gate_eq x0 x1 x2 x3 x4 (i 0) (i 1)
  rw [e, g]
  rfl

end Cert.Kde.Ref

end
-- ==== Proof.lean ====
/-
  The kernel-density attention kernel against its jnp reference, at the ideal values.

  Both programs take x : [32, 256, 64, 64], two weight matrices and two biases, and return x scaled, channel by channel
  within each batch, by a gate plus one half. With batch b read as a 256 × 4096 matrix X: the channels' squared norms and
  Gram matrix give the clamped squared distances max (|X_c|² + |X_d|² − 2·X_c·X_d, 0); the density of channel c is the mean
  over d of exp (−½ · distance); the gate is the logistic function of a two-layer network of the densities.

  The reference computes this with whole-array host operations (Proof/RefSide.lean: stage by stage it IS the
  specification of Proof/Spec.lean; the laws are 0 + s = s, x / 1 = x and 1 / (1 + exp (−z)) = logistic z). The kernel
  computes one batch per grid point (Proof/KerStages.lean: the body's stages at an index), forcing the diagonal of the
  distance matrix to zero; on the extended reals a + a − 2·a clamped at zero is zero for every a, so the forced diagonal
  agrees with the reference's formula (Proof/Spec.lean `diag_zero`) and no finiteness of the inputs is used. The 32
  blocks the points write back cover the region's result (Proof/KerArray.lean), and the host re-layings before and after
  the region are read in Proof/KerRun.lean. The three frames are the generated ones (the reference's is its generated run
  with the result dropped); the idealization rewrote nothing, so `preserves` is trivial.
-/
import proofs.«113556_j83202106458478_2_alg».proof.Defs
import proofs.«113556_j83202106458478_2_alg».proof.Proof.Gen.Kernel
import proofs.«113556_j83202106458478_2_alg».proof.Proof.Gen.Kernel.Frame
import proofs.«113556_j83202106458478_2_alg».proof.Proof.Gen.KernelIdeal
import proofs.«113556_j83202106458478_2_alg».proof.Proof.Gen.KernelIdeal.Frame
import proofs.«113556_j83202106458478_2_alg».proof.Proof.Gen.ReferenceIdeal
import proofs.«113556_j83202106458478_2_alg».proof.Proof.Gen.Pre_finite_inputs
import proofs.«113556_j83202106458478_2_alg».proof.Proof.Gen.ReferenceIdeal.Run
import proofs.«113556_j83202106458478_2_alg».proof.Proof.Gen.ReferenceIdeal.Read
import proofs.«113556_j83202106458478_2_alg».proof.Proof.KerRun
import proofs.«113556_j83202106458478_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification of their (agreeing) arguments. -/
theorem algebraic : Cert.algebraic_KernelIdeal_ReferenceIdeal := by
  intro m ρ m' ρ' _ hagree
  refine ⟨_, Cert.Kde.KerRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v41_eq _ _ _ _ _).trans ?_
  rw [Cert.Kde.Ref.result_eq, (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
